-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 104
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S1x800000, .i32⟩
  | .hbm, ⟨43, _⟩ => ⟨S800000, .i32⟩
  | .hbm, ⟨44, _⟩ => ⟨S1x800000, .i32⟩
  | .hbm, ⟨45, _⟩ => ⟨S800000, .i32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S1x800000, .i32⟩
  | .hbm, ⟨74, _⟩ => ⟨S800000, .i32⟩
  | .hbm, ⟨75, _⟩ => ⟨S1x800000, .i32⟩
  | .hbm, ⟨76, _⟩ => ⟨S800000, .i32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S_, .f32⟩
  | .hbm, ⟨91, _⟩ => ⟨S800000, .f32⟩
  | .hbm, ⟨92, _⟩ => ⟨S_, .f32⟩
  | .hbm, ⟨93, _⟩ => ⟨S50000, .f32⟩
  | .hbm, ⟨94, _⟩ => ⟨S800000x1, .i32⟩
  | .hbm, ⟨95, _⟩ => ⟨S50000, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S1x64, .f32⟩
  | .hbm, ⟨103, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v72) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S1x800000, .i32⟩
  | .hbm, ⟨52, _⟩ => ⟨S800000, .i32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S1x800000, .i32⟩
  | .hbm, ⟨88, _⟩ => ⟨S800000, .i32⟩
  | .hbm, ⟨89, _⟩ => ⟨S1x800000, .i32⟩
  | .hbm, ⟨90, _⟩ => ⟨S800000, .i32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S_, .f32⟩
  | .hbm, ⟨105, _⟩ => ⟨S800000, .f32⟩
  | .hbm, ⟨106, _⟩ => ⟨S_, .f32⟩
  | .hbm, ⟨107, _⟩ => ⟨S50000, .f32⟩
  | .hbm, ⟨108, _⟩ => ⟨S800000x1, .i32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, with what it leaves in memory named.

  @main is six segments: a stretch of host operations, the first layer's region, a second stretch, the second layer's
  region, a third stretch, the last layer's region.  Every weakly fair execution runs them in order and terminates; at
  the end every buffer that is not a kernel's scratch holds the contents of the last segment boundary (`W6`: the
  launch memory folded through the three stretches and the three regions' write-backs).  In particular the result
  buffer holds the last region's output array, and no argument has changed.
-/
import proofs.«167139_j83872121356315_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in the final memory every unscoped buffer of
    every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, read at the result buffer and at the eleven arguments: the result holds the last boundary's contents
    of its buffer, every argument is as launched. -/
theorem run_result : θ_run defs (onTc (τ := τ) (main (F := F))) ⟨m, fun _ => 0, ρ⟩ (fun r => ∀ c : Dev nD,
      r.2.mem ((c.tc : Thread nD τ).loc main_v74) = W6 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v74 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_all m ρ)

end Cert.KernelIdeal.KRun

end
-- ==== Proof.KernelAgg.lean ====
/-
  The aggregation step of the kernel program's host code, as one function.

  Before each region the host gathers the source rows of the current node features along the edges, adds them into
  their destination rows, counts the edges into each destination, and divides the sums by max(count, 1).  The same
  operations, with the same constants, stand before each of the three regions; only the features they are applied to
  change.  They are carried as this one function and never opened.
-/
import proofs.«167139_j83872121356315_1_alg».proof.Proof.Gen.KernelIdeal

noncomputable section

namespace Cert.KernelIdeal.Walk

open Cert.KernelIdeal Cert.KernelIdeal.Gen Idealize.ShloMosaic Idealize.ShloMosaic.TcCoe Idealize.SL.Sem Idealize.ShloMosaic.StableHlo

variable {F : FTy → Type} [FloatOps F]

/-- Mean aggregation over the graph: row d of the result is the sum of the rows x[src(j)] over the edges j with
    dst(j) = d, divided by max(number of such edges, 1).  (A negative index is first wrapped by adding 50000.) -/
def agg (x : (⟨S50000x128, .f32⟩ : BufTy).Contents (Elt F)) (e : (⟨S2x800000, .i32⟩ : BufTy).Contents (Elt F)) :
    (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

end Cert.KernelIdeal.Walk

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.DenseSpec.lean ====
/-
  One dense layer of the network, as a function of an output index.

  For aggregated features `a` and node features `x` (both [n, k]), weights `wl`, `wr` (both [k, c]) and a bias row `b`
  ([1, c]) the layer's entry at (r, q) is

      (∑ₖ a(r,k)·wl(k,q)) + (∑ₖ x(r,k)·wr(k,q)) + b(0,q).

  The two programs group the three terms differently — one adds the bias last, the other adds it before the second
  product.  Addition of extended reals is commutative and associative (also at the infinities), so the two groupings
  are the same number for EVERY input: no finiteness is needed, which is what lets the layers be composed.
  Also here: the product of a block of consecutive rows is the product of the whole matrix read at the block's rows.
-/
import Idealize.ShloMosaic.PureOps.Ideal.Laws
import Idealize.ShloMosaic.Lib.ValueIdx
import proofs.«167139_j83872121356315_1_alg».proof.Proof.LibPlainDot

noncomputable section

namespace Cert.Sage

open Idealize.ShloMosaic Idealize.ShloMosaic.ValueIdx Cert.Lib.PlainDot
open scoped BigOperators

variable {n k c : Nat}

/-- The bias row's index (0, q) under the output index (r, q). -/
abbrev biasIdx (j : (⟨2, ![n, c]⟩ : Shape).Idx) : (⟨2, ![1, c]⟩ : Shape).Idx := fun a => match a with
  | ⟨0, _⟩ => ⟨0, Nat.one_pos⟩
  | ⟨1, _⟩ => ⟨(j 1).val, (j 1).isLt⟩

/-- The layer with the bias added last: (a·wl + x·wr) + b. -/
def dense (a x : (⟨2, ![n, k]⟩ : Shape).Idx → EReal) (wl wr : (⟨2, ![k, c]⟩ : Shape).Idx → EReal)
    (b : (⟨2, ![1, c]⟩ : Shape).Idx → EReal) : (⟨2, ![n, c]⟩ : Shape).Idx → EReal :=
  fun j => mm a wl j + mm x wr j + b (biasIdx j)

/-- The layer with the bias added before the second product: (a·wl + b) + x·wr. -/
def denseBiasFirst (a x : (⟨2, ![n, k]⟩ : Shape).Idx → EReal) (wl wr : (⟨2, ![k, c]⟩ : Shape).Idx → EReal)
    (b : (⟨2, ![1, c]⟩ : Shape).Idx → EReal) : (⟨2, ![n, c]⟩ : Shape).Idx → EReal :=
  fun j => mm a wl j + b (biasIdx j) + mm x wr j

/-- The two groupings agree on every input: (p + b) + s = (p + s) + b in any commutative additive monoid. -/
theorem denseBiasFirst_eq (a x : (⟨2, ![n, k]⟩ : Shape).Idx → EReal) (wl wr : (⟨2, ![k, c]⟩ : Shape).Idx → EReal)
    (b : (⟨2, ![1, c]⟩ : Shape).Idx → EReal) : denseBiasFirst a x wl wr b = dense a x wl wr b :=
  funext fun _ => add_right_comm _ _ _

/-- Every entry replaced by its maximum with zero (the zero being the float word 0). -/
def relu {s : Shape} (v : s.Idx → EReal) : s.Idx → EReal :=
  fun j => max (v j) (Ideal.ofBits .f32 0x00000000#32)

/-- The product of a block of rows: if the block `blk` ([R, k]) holds, at each (p, kk), the matrix `A` ([n, k]) at
    (r, kk) where r is the row that the output index `i` names, and the output indices `y` (in the block) and `i` (in the
    array) name the same column, then the block's product at `y` is the matrix's product at `i`. -/
theorem mm_rows {R : Nat} (A : (⟨2, ![n, k]⟩ : Shape).Idx → EReal) (blk : (⟨2, ![R, k]⟩ : Shape).Idx → EReal)
    (w : (⟨2, ![k, c]⟩ : Shape).Idx → EReal) (y : (⟨2, ![R, c]⟩ : Shape).Idx) (i : (⟨2, ![n, c]⟩ : Shape).Idx)
    (hrow : ∀ kk : Fin k, blk (rowIdx y kk) = A (rowIdx i kk)) (hcol : (y 1).val = (i 1).val) :
    mm blk w y = mm A w i := by
  unfold mm
  refine Finset.sum_congr rfl fun kk _ => ?_
  rw [hrow kk]
  have e : (colIdx y kk : (⟨2, ![k, c]⟩ : Shape).Idx) = colIdx i kk := funext fun a => Fin.ext (by
    match a with
    | ⟨0, _⟩ => rfl
    | ⟨1, _⟩ => exact hcol)
  rw [e]

/-- Equal operands give equal layers. -/
theorem dense_congr {a a' x x' : (⟨2, ![n, k]⟩ : Shape).Idx → EReal} {wl wl' wr wr' : (⟨2, ![k, c]⟩ : Shape).Idx → EReal}
    {b b' : (⟨2, ![1, c]⟩ : Shape).Idx → EReal} (ha : a = a') (hx : x = x') (hwl : wl = wl') (hwr : wr = wr') (hb : b = b') :
    dense a x wl wr b = dense a' x' wl' wr' b' := by
  subst ha hx hwl hwr hb; rfl

/-- The dense layer of a block of rows is the dense layer of the whole arrays read at the block's rows: when the two
    row blocks hold the arrays' rows that the output index `i` names, the weights and the bias row are the arrays'
    own, and `y` and `i` name the same column. -/
theorem dense_rows {R : Nat} (A X : (⟨2, ![n, k]⟩ : Shape).Idx → EReal) (WL WR : (⟨2, ![k, c]⟩ : Shape).Idx → EReal)
    (B : (⟨2, ![1, c]⟩ : Shape).Idx → EReal) (a x : (⟨2, ![R, k]⟩ : Shape).Idx → EReal)
    (wl wr : (⟨2, ![k, c]⟩ : Shape).Idx → EReal) (b : (⟨2, ![1, c]⟩ : Shape).Idx → EReal)
    (y : (⟨2, ![R, c]⟩ : Shape).Idx) (i : (⟨2, ![n, c]⟩ : Shape).Idx)
    (ha : ∀ kk : Fin k, a (rowIdx y kk) = A (rowIdx i kk)) (hx : ∀ kk : Fin k, x (rowIdx y kk) = X (rowIdx i kk))
    (hwl : wl = WL) (hwr : wr = WR) (hb : b = B) (hcol : (y 1).val = (i 1).val) :
    dense a x wl wr b y = dense A X WL WR B i := by
  subst hwl hwr hb
  unfold dense
  rw [mm_rows A a wl y i ha hcol, mm_rows X x wr y i hx hcol]
  have e : (biasIdx y : (⟨2, ![1, c]⟩ : Shape).Idx) = biasIdx i := funext fun ax => Fin.ext (by
    match ax with
    | ⟨0, _⟩ => rfl
    | ⟨1, _⟩ => exact hcol)
  rw [e]

end Cert.Sage

end
-- ==== Proof.KernelBody.lean ====
/-
  What one call of each kernel body stores, read at an index of the block, at the ideal values.

  A body loads a block of aggregated features `a` and of node features `x` (2000 rows each), the two weight matrices
  `wl`, `wr` and the bias row `b`, and stores  max((a·wl + x·wr) + b, 0)  — the last layer stores (a·wl + x·wr) + b
  without the maximum.  The changes of float format in the body are the identity on extended reals, each matrix
  product into a zero accumulator is the plain sum over the contracted axis, and the bias row is repeated over the rows;
  so the stored block is the dense layer of the loaded blocks, entry by entry.
-/
import proofs.«167139_j83872121356315_1_alg».proof.Proof.Gen.KernelIdeal.Skeleton
import proofs.«167139_j83872121356315_1_alg».proof.Proof.DenseSpec
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.KernelIdeal.Gen Cert.Lib.PlainDot Cert.Sage

/-- A `[1, b]` row repeated over `a` rows reads, at (r, q), the row at (0, q). -/
theorem broadcastTo_1b_ab_apply {α : Type} {a b : ℕ} (v : (⟨2, ![1, b]⟩ : Shape).Idx → α)
    (h : (⟨2, ![1, b]⟩ : Shape).Broadcasts ⟨2, ![a, b]⟩) (j : (⟨2, ![a, b]⟩ : Shape).Idx) :
    broadcastTo ⟨2, ![a, b]⟩ v h j = v (biasIdx j) := by
  refine broadcastTo_apply v h j (biasIdx j) fun ax => ?_
  match ax with
  | ⟨0, _⟩ => rfl
  | ⟨1, _⟩ =>
    show (j 1).val = if b = 1 then 0 else (j 1).val
    have hj : (j 1).val < b := (j 1).isLt
    split
    · omega
    · rfl

/-- The first layer's body: the stored block is the dense layer of the loaded blocks, then the maximum with zero. -/
theorem pay0_apply (v0 v3 : Vec Ideal S2000x128 .f32) (v5 v7 : Vec Ideal S128x128 .f32) (v12 : Vec Ideal S1x128 .f32)
    (j : S2000x128.Idx) :
    k0_pay1 (F := Ideal) v0 v3 v5 v7 v12 j = relu (dense v0 v3 v5 v7 v12) j := by
  unfold k0_pay1 relu dense
  refine congrArg₂ max (congrArg₂ (· + ·) (congrArg₂ (· + ·) ?_ ?_) ?_) rfl
  · refine (matmul_zero_apply _ rfl none _ _ j).trans ?_
    rw [shapeCast_self]; rfl
  · exact matmul_zero_apply _ rfl none _ _ j
  · refine (broadcastTo_1b_ab_apply _ _ j).trans ?_
    rw [shapeCast_self]

/-- The second layer's body: the same, over its own loads. -/
theorem pay1_apply (v0 v3 : Vec Ideal S2000x128 .f32) (v6 v8 : Vec Ideal S128x128 .f32) (v13 : Vec Ideal S1x128 .f32)
    (j : S2000x128.Idx) :
    k1_pay1 (F := Ideal) v0 v3 v6 v8 v13 j = relu (dense v0 v3 v6 v8 v13) j := by
  unfold k1_pay1 relu dense
  refine congrArg₂ max (congrArg₂ (· + ·) (congrArg₂ (· + ·) ?_ ?_) ?_) rfl
  · refine (matmul_zero_apply _ rfl none _ _ j).trans ?_
    rw [shapeCast_self]; rfl
  · refine (matmul_zero_apply _ rfl none _ _ j).trans ?_
    rw [shapeCast_self]; rfl
  · refine (broadcastTo_1b_ab_apply _ _ j).trans ?_
    rw [shapeCast_self]

/-- The last layer's body: the dense layer of the loaded blocks, 64 columns wide, no maximum. -/
theorem pay2_apply (v0 v3 : Vec Ideal S2000x128 .f32) (v6 v8 : Vec Ideal S128x64 .f32) (v13 : Vec Ideal S1x64 .f32)
    (j : S2000x64.Idx) :
    k2_pay1 (F := Ideal) v0 v3 v6 v8 v13 j = dense v0 v3 v6 v8 v13 j := by
  unfold k2_pay1 dense
  refine congrArg₂ (· + ·) (congrArg₂ (· + ·) ?_ ?_) ?_
  · refine (matmul_zero_apply _ rfl none _ _ j).trans ?_
    rw [shapeCast_self]; rfl
  · refine (matmul_zero_apply _ rfl none _ _ j).trans ?_
    rw [shapeCast_self]; rfl
  · refine (broadcastTo_1b_ab_apply _ _ j).trans ?_
    rw [shapeCast_self]

end Cert.KernelIdeal.Body

end
-- ==== Proof.Region0.lean ====
/-
  The first layer's array after its region, as one function of the arrays the region is entered with.

  The region writes the output 2000 rows at a time: grid point t stores rows 2000·t … 2000·t+1999, computed from the same
  rows of the aggregated features and of the node features and from the whole weight matrices and bias row.  A block of a
  dense layer is the dense layer read at the block's rows, so every block written is a block of ONE array-sized function
  — relu of the dense layer of the entry arrays — and the 25 blocks cover all 50000 rows.
-/
import proofs.«167139_j83872121356315_1_alg».proof.Proof.Gen.KernelIdeal.Frame
import proofs.«167139_j83872121356315_1_alg».proof.Proof.KernelBody

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body Cert.Lib.PlainDot Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer's output as a function of the arrays the region is entered with. -/
def layer (c : Dev nD) : S50000x128.Idx → EReal :=
  relu (dense (n := 50000) (k := 128) (c := 128) (V c main_v22) (V c main_arg0) (V c main_arg2) (V c main_arg4) (V c main_v23))

/-- The index maps over the 25 grid points: the two row-blocked inputs move with the output's row block, the weights
    and the bias row stay at block (0, 0), and the output's row block at point t is t. -/
theorem blocks : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `layer`. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := blocks t
  funext y
  show k0_pay1 (iblk0 V c 0 t) (iblk0 V c 1 t) (iblk0 V c 2 t) (iblk0 V c 4 t) (iblk0 V c 3 t) y
    = layer V c (((cfg0.win 5).blk t).view.emb y)
  refine (pay0_apply _ _ _ _ _ y).trans ?_
  unfold layer relu
  refine congrArg (fun z => max z _) ?_
  refine dense_rows (R := 2000) (n := 50000) (k := 128) (c := 128) _ _ _ _ _ _ _ _ _ _ y _
    (fun kk => ?_) (fun kk => ?_) ?_ ?_ ?_ ?_
  · -- the aggregated features' block holds the array's rows 2000·t + (y 0)
    show V c main_v22 (((cfg0.win 0).blk t).view.emb (rowIdx y kk)) = _
    refine congrArg _ (funext fun a => Fin.ext ?_)
    match a with
    | ⟨0, _⟩ =>
      show win0_0.index t (0 : Fin 2) * 2000 + 1 * (y 0).val = win0_5.index t (0 : Fin 2) * 2000 + 1 * (y 0).val
      omega
    | ⟨1, _⟩ =>
      show win0_0.index t (1 : Fin 2) * 128 + 1 * kk.val = kk.val
      omega
  · -- so does the node features' block
    show V c main_arg0 (((cfg0.win 1).blk t).view.emb (rowIdx y kk)) = _
    refine congrArg _ (funext fun a => Fin.ext ?_)
    match a with
    | ⟨0, _⟩ =>
      show win0_1.index t (0 : Fin 2) * 2000 + 1 * (y 0).val = win0_5.index t (0 : Fin 2) * 2000 + 1 * (y 0).val
      omega
    | ⟨1, _⟩ =>
      show win0_1.index t (1 : Fin 2) * 128 + 1 * kk.val = kk.val
      omega
  · -- the left weights' one block is the whole matrix
    funext z
    show V c main_arg2 (((cfg0.win 2).blk t).view.emb z) = V c main_arg2 z
    refine congrArg _ (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · -- the right weights' too
    funext z
    show V c main_arg4 (((cfg0.win 4).blk t).view.emb z) = V c main_arg4 z
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  · -- and the bias row's
    funext z
    show V c main_v23 (((cfg0.win 3).blk t).view.emb z) = V c main_v23 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 128 + 1 * (z 1).val = (z 1).val; omega
  · -- the output's block keeps the column
    show (y 1).val = win0_5.index t (1 : Fin 2) * 128 + 1 * (y 1).val
    omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Row r lies in the block of point r / 2000: the 25 blocks of 2000 rows cover the 50000 rows. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < 25 := by omega
  obtain ⟨-, -, -, -, -, -, -, -, -, -, e50, e51⟩ := blocks ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    have e : win0_5.index ⟨(i 0).val / 2000, ht⟩ (0 : Fin 2) = (i 0).val / 2000 := e50
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    omega

/-- The output array after the region: relu of the dense layer of the arrays the region was entered with. -/
theorem final (c : Dev nD) : (dat0 V c).arrAt 5 cfg0.N = layer V c :=
  (dat0 V c).arrAt_eq_of_cover 5 (layer V c) (fun t _ => flushed_eq V c t) (fun i => cover i)

end Cert.KernelIdeal.Region0

end
-- ==== Proof.Walk0.lean ====
/-
  The first stretch of host operations and the first region, read.

  From the launch memory the first stretch computes the aggregated features (`agg` of the node features and the edge
  list) and casts the first bias to a row; it writes no argument.  The first region then leaves, in its output array,
  relu of the dense layer of those: the first hidden features.  Buffers the region does not own keep their contents.
-/
import proofs.«167139_j83872121356315_1_alg».proof.Proof.Gen.KernelIdeal.Frame
import proofs.«167139_j83872121356315_1_alg».proof.Proof.KernelAgg
import proofs.«167139_j83872121356315_1_alg».proof.Proof.Region0
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.Sage
open Idealize.ShloMosaic.Pipeline (Dat)

variable (m : (ℓ : Loc nD τ sig) → Buf (Elt Ideal) ℓ) (ρ : Dev nD → PrngReg) (c : Dev nD)

/-! ## After the first stretch -/

set_option maxHeartbeats 40000000 in
/-- The aggregated features entering the first region. -/
theorem W1_v22 : W1 m ρ c (Proc.devRef .tc main_v22)
    = agg (m ((c : Thread nD τ).loc main_arg0)) (m ((c : Thread nD τ).loc main_arg1)) := by
  show StableHlo.after hostOps0 (W0 m ρ c) (Proc.devRef .tc main_v22) = _
  after_results
  rfl

set_option maxHeartbeats 40000000 in
/-- The first bias as a row. -/
theorem W1_v23 : W1 m ρ c (Proc.devRef .tc main_v23)
    = shapeCast S1x128 (m ((c : Thread nD τ).loc main_arg3)) shapeCasts_S128_S1x128 := by
  show StableHlo.after hostOps0 (W0 m ρ c) (Proc.devRef .tc main_v23) = _
  after_results
  rfl

/-! The stretch writes no argument: each holds its launch contents. -/
theorem W1_arg0 : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg1 : W1 m ρ c (Proc.devRef .tc main_arg1) = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg2 : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg4 : W1 m ρ c (Proc.devRef .tc main_arg4) = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg5 : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg6 : W1 m ρ c (Proc.devRef .tc main_arg6) = m ((c : Thread nD τ).loc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg7 : W1 m ρ c (Proc.devRef .tc main_arg7) = m ((c : Thread nD τ).loc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg8 : W1 m ρ c (Proc.devRef .tc main_arg8) = m ((c : Thread nD τ).loc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg9 : W1 m ρ c (Proc.devRef .tc main_arg9) = m ((c : Thread nD τ).loc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg10 : W1 m ρ c (Proc.devRef .tc main_arg10) = m ((c : Thread nD τ).loc main_arg10) :=
  StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## After the first region -/

/-- The first hidden features: relu of the dense layer of the aggregated and the plain node features. -/
def hidden1 (x : (⟨S50000x128, .f32⟩ : BufTy).Contents (Elt Ideal)) (e : (⟨S2x800000, .i32⟩ : BufTy).Contents (Elt Ideal))
    (wl0 : (⟨S128x128, .f32⟩ : BufTy).Contents (Elt Ideal)) (b0 : (⟨S128, .f32⟩ : BufTy).Contents (Elt Ideal))
    (wr0 : (⟨S128x128, .f32⟩ : BufTy).Contents (Elt Ideal)) : (⟨S50000x128, .f32⟩ : BufTy).Contents (Elt Ideal) :=
  relu (dense (n := 50000) (k := 128) (c := 128) (agg x e) x wl0 wr0 (shapeCast S1x128 b0 shapeCasts_S128_S1x128))

/-- The first region's output array holds the first hidden features. -/
theorem W2_v24 : W2 m ρ c (Proc.devRef .tc main_v24)
    = hidden1 (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ((Region0.final (V1 m ρ) c).trans ?_)
  unfold Region0.layer hidden1
  exact congrArg relu (dense_congr (W1_v22 m ρ c) (W1_arg0 m ρ c) (W1_arg2 m ρ c) (W1_arg4 m ρ c) (W1_v23 m ρ c))

/-! The region owns none of these buffers, so they keep their contents. -/
theorem W2_arg1 : W2 m ρ c (Proc.devRef .tc main_arg1) = m ((c : Thread nD τ).loc main_arg1) :=
  (W2_of_ne m ρ c main_arg1 (by decide)).trans (W1_arg1 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)

end Cert.KernelIdeal.Walk

end
-- ==== Proof.Region1.lean ====
/-
  The second layer's array after its region, as one function of the arrays the region is entered with.

  The region writes the output 2000 rows at a time: grid point t stores rows 2000·t … 2000·t+1999, computed from the same
  rows of the aggregated features and of the node features and from the whole weight matrices and bias row.  A block of a
  dense layer is the dense layer read at the block's rows, so every block written is a block of ONE array-sized function
  — relu of the dense layer of the entry arrays — and the 25 blocks cover all 50000 rows.
-/
import proofs.«167139_j83872121356315_1_alg».proof.Proof.Gen.KernelIdeal.Frame
import proofs.«167139_j83872121356315_1_alg».proof.Proof.KernelBody

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.Lib.PlainDot Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer's output as a function of the arrays the region is entered with. -/
def layer (c : Dev nD) : S50000x128.Idx → EReal :=
  relu (dense (n := 50000) (k := 128) (c := 128) (V c main_v47) (V c main_v24) (V c main_arg5) (V c main_arg7) (V c main_v48))

/-- The index maps over the 25 grid points: the two row-blocked inputs move with the output's row block, the weights
    and the bias row stay at block (0, 0), and the output's row block at point t is t. -/
theorem blocks : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `layer`. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x128) origin,
    View.ld_unit_zero (S := S1x128) origin]
  obtain ⟨e00, e01, e10, e11, e20, e21, e30, e31, e40, e41, e50, e51⟩ := blocks t
  funext y
  show k1_pay1 (iblk1 V c 0 t) (iblk1 V c 1 t) (iblk1 V c 2 t) (iblk1 V c 4 t) (iblk1 V c 3 t) y
    = layer V c (((cfg1.win 5).blk t).view.emb y)
  refine (pay1_apply _ _ _ _ _ y).trans ?_
  unfold layer relu
  refine congrArg (fun z => max z _) ?_
  refine dense_rows (R := 2000) (n := 50000) (k := 128) (c := 128) _ _ _ _ _ _ _ _ _ _ y _
    (fun kk => ?_) (fun kk => ?_) ?_ ?_ ?_ ?_
  · -- the aggregated features' block holds the array's rows 2000·t + (y 0)
    show V c main_v47 (((cfg1.win 0).blk t).view.emb (rowIdx y kk)) = _
    refine congrArg _ (funext fun a => Fin.ext ?_)
    match a with
    | ⟨0, _⟩ =>
      show win1_0.index t (0 : Fin 2) * 2000 + 1 * (y 0).val = win1_5.index t (0 : Fin 2) * 2000 + 1 * (y 0).val
      omega
    | ⟨1, _⟩ =>
      show win1_0.index t (1 : Fin 2) * 128 + 1 * kk.val = kk.val
      omega
  · -- so does the node features' block
    show V c main_v24 (((cfg1.win 1).blk t).view.emb (rowIdx y kk)) = _
    refine congrArg _ (funext fun a => Fin.ext ?_)
    match a with
    | ⟨0, _⟩ =>
      show win1_1.index t (0 : Fin 2) * 2000 + 1 * (y 0).val = win1_5.index t (0 : Fin 2) * 2000 + 1 * (y 0).val
      omega
    | ⟨1, _⟩ =>
      show win1_1.index t (1 : Fin 2) * 128 + 1 * kk.val = kk.val
      omega
  · -- the left weights' one block is the whole matrix
    funext z
    show V c main_arg5 (((cfg1.win 2).blk t).view.emb z) = V c main_arg5 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · -- the right weights' too
    funext z
    show V c main_arg7 (((cfg1.win 4).blk t).view.emb z) = V c main_arg7 z
    refine congrArg _ (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  · -- and the bias row's
    funext z
    show V c main_v48 (((cfg1.win 3).blk t).view.emb z) = V c main_v48 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 128 + 1 * (z 1).val = (z 1).val; omega
  · -- the output's block keeps the column
    show (y 1).val = win1_5.index t (1 : Fin 2) * 128 + 1 * (y 1).val
    omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v49).slice (win1_5.rect t)).set ↔ _
  rw [View.set_slice_whole, Rect.mem_set_unit]
  exact Iff.rfl

/-- Row r lies in the block of point r / 2000: the 25 blocks of 2000 rows cover the 50000 rows. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < 25 := by omega
  obtain ⟨-, -, -, -, -, -, -, -, -, -, e50, e51⟩ := blocks ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    have e : win1_5.index ⟨(i 0).val / 2000, ht⟩ (0 : Fin 2) = (i 0).val / 2000 := e50
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    omega

/-- The output array after the region: relu of the dense layer of the arrays the region was entered with. -/
theorem final (c : Dev nD) : (dat1 V c).arrAt 5 cfg1.N = layer V c :=
  (dat1 V c).arrAt_eq_of_cover 5 (layer V c) (fun t _ => flushed_eq V c t) (fun i => cover i)

end Cert.KernelIdeal.Region1

end
-- ==== Proof.Walk1.lean ====
/-
  The second stretch of host operations and the second region, read.

  The second stretch aggregates the first hidden features over the same edge list and casts the second bias to a row;
  it writes neither the hidden features nor any argument.  The second region leaves relu of the dense layer of those in
  its output array: the second hidden features.
-/
import proofs.«167139_j83872121356315_1_alg».proof.Proof.Gen.KernelIdeal.Frame
import proofs.«167139_j83872121356315_1_alg».proof.Proof.KernelAgg
import proofs.«167139_j83872121356315_1_alg».proof.Proof.Walk0
import proofs.«167139_j83872121356315_1_alg».proof.Proof.Region1
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.Sage
open Idealize.ShloMosaic.Pipeline (Dat)

variable (m : (ℓ : Loc nD τ sig) → Buf (Elt Ideal) ℓ) (ρ : Dev nD → PrngReg) (c : Dev nD)

/-! ## After the second stretch -/

set_option maxHeartbeats 40000000 in
/-- The aggregated first hidden features. -/
theorem W3_v47 : W3 m ρ c (Proc.devRef .tc main_v47) = agg (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  have raw : W3 m ρ c (Proc.devRef .tc main_v47)
      = agg (W2 m ρ c (Proc.devRef .tc main_v24)) (W2 m ρ c (Proc.devRef .tc main_arg1)) := by
    show StableHlo.after hostOps1 (W2 m ρ c) (Proc.devRef .tc main_v47) = _
    after_results
    rfl
  rw [raw, W2_v24, W2_arg1]

set_option maxHeartbeats 40000000 in
/-- The second bias as a row. -/
theorem W3_v48 : W3 m ρ c (Proc.devRef .tc main_v48)
    = shapeCast S1x128 (m ((c : Thread nD τ).loc main_arg6)) shapeCasts_S128_S1x128 := by
  have raw : W3 m ρ c (Proc.devRef .tc main_v48)
      = shapeCast S1x128 (W2 m ρ c (Proc.devRef .tc main_arg6)) shapeCasts_S128_S1x128 := by
    show StableHlo.after hostOps1 (W2 m ρ c) (Proc.devRef .tc main_v48) = _
    after_results
    rfl
  rw [raw, W2_arg6]

/-- The stretch does not write the first hidden features. -/
theorem W3_v24 : W3 m ρ c (Proc.devRef .tc main_v24) = (hidden1 (m ((c : Thread nD τ).loc main_arg0)) (m ((c : Thread nD τ).loc main_arg1)) (m ((c : Thread nD τ).loc main_arg2)) (m ((c : Thread nD τ).loc main_arg3)) (m ((c : Thread nD τ).loc main_arg4))) :=
  (StableHlo.after_of_forall_not_mem (b := Proc.devRef .tc main_v24) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v24 m ρ c)

/-! Nor any argument. -/
theorem W3_arg1 : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg1 m ρ c)

theorem W3_arg5 : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)

theorem W3_arg7 : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

theorem W3_arg8 : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)

theorem W3_arg9 : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)

theorem W3_arg10 : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)

/-! ## After the second region -/

/-- The second hidden features. -/
def hidden2 (x : (⟨S50000x128, .f32⟩ : BufTy).Contents (Elt Ideal)) (e : (⟨S2x800000, .i32⟩ : BufTy).Contents (Elt Ideal))
    (wl0 : (⟨S128x128, .f32⟩ : BufTy).Contents (Elt Ideal)) (b0 : (⟨S128, .f32⟩ : BufTy).Contents (Elt Ideal)) (wr0 : (⟨S128x128, .f32⟩ : BufTy).Contents (Elt Ideal))
    (wl1 : (⟨S128x128, .f32⟩ : BufTy).Contents (Elt Ideal)) (b1 : (⟨S128, .f32⟩ : BufTy).Contents (Elt Ideal)) (wr1 : (⟨S128x128, .f32⟩ : BufTy).Contents (Elt Ideal)) : (⟨S50000x128, .f32⟩ : BufTy).Contents (Elt Ideal) :=
  relu (dense (n := 50000) (k := 128) (c := 128) (agg (hidden1 x e wl0 b0 wr0) e) (hidden1 x e wl0 b0 wr0) wl1 wr1
    (shapeCast S1x128 b1 shapeCasts_S128_S1x128))

/-- The second region's output array holds the second hidden features. -/
theorem W4_v49 : W4 m ρ c (Proc.devRef .tc main_v49) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 5).trans ((Region1.final (V3 m ρ) c).trans ?_)
  unfold Region1.layer hidden2
  exact congrArg relu (dense_congr (W3_v47 m ρ c) (W3_v24 m ρ c) (W3_arg5 m ρ c) (W3_arg7 m ρ c) (W3_v48 m ρ c))

/-! The region owns none of these buffers. -/
theorem W4_arg1 : W4 m ρ c (Proc.devRef .tc main_arg1) = m ((c : Thread nD τ).loc main_arg1) :=
  (W4_of_ne m ρ c main_arg1 (by decide)).trans (W3_arg1 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)

end Cert.KernelIdeal.Walk

end
-- ==== Proof.Region2.lean ====
/-
  The last layer's array after its region, as one function of the arrays the region is entered with.

  The region writes the output 2000 rows at a time: grid point t stores rows 2000·t … 2000·t+1999, computed from the same
  rows of the aggregated features and of the node features and from the whole weight matrices and bias row.  A block of a
  dense layer is the dense layer read at the block's rows, so every block written is a block of ONE array-sized function
  — the dense layer of the entry arrays, 64 columns wide — and the 25 blocks cover all 50000 rows.  (This layer has no maximum with zero.)
-/
import proofs.«167139_j83872121356315_1_alg».proof.Proof.Gen.KernelIdeal.Frame
import proofs.«167139_j83872121356315_1_alg».proof.Proof.KernelBody

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.Body Cert.Lib.PlainDot Cert.Sage
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The layer's output as a function of the arrays the region is entered with. -/
def layer (c : Dev nD) : S50000x64.Idx → EReal :=
  (dense (n := 50000) (k := 128) (c := 64) (V c main_v72) (V c main_v49) (V c main_arg8) (V c main_arg10) (V c main_v73))

/-- The index maps over the 25 grid points: the two row-blocked inputs move with the output's row block, the weights
    and the bias row stay at block (0, 0), and the output's row block at point t is t. -/
theorem blocks : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of `layer`. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero origin]
  simp only [View.ld_unit_zero (S := S2000x128) origin, View.ld_unit_zero (S := S128x64) origin,
    View.ld_unit_zero (S := S1x64) origin]
  obtain ⟨e00, e01, e10, e11, e20, e21, e30, e31, e40, e41, e50, e51⟩ := blocks t
  funext y
  show k2_pay1 (iblk2 V c 0 t) (iblk2 V c 1 t) (iblk2 V c 2 t) (iblk2 V c 4 t) (iblk2 V c 3 t) y
    = layer V c (((cfg2.win 5).blk t).view.emb y)
  refine (pay2_apply _ _ _ _ _ y).trans ?_
  unfold layer
  refine dense_rows (R := 2000) (n := 50000) (k := 128) (c := 64) _ _ _ _ _ _ _ _ _ _ y _
    (fun kk => ?_) (fun kk => ?_) ?_ ?_ ?_ ?_
  · -- the aggregated features' block holds the array's rows 2000·t + (y 0)
    show V c main_v72 (((cfg2.win 0).blk t).view.emb (rowIdx y kk)) = _
    refine congrArg _ (funext fun a => Fin.ext ?_)
    match a with
    | ⟨0, _⟩ =>
      show win2_0.index t (0 : Fin 2) * 2000 + 1 * (y 0).val = win2_5.index t (0 : Fin 2) * 2000 + 1 * (y 0).val
      omega
    | ⟨1, _⟩ =>
      show win2_0.index t (1 : Fin 2) * 128 + 1 * kk.val = kk.val
      omega
  · -- so does the node features' block
    show V c main_v49 (((cfg2.win 1).blk t).view.emb (rowIdx y kk)) = _
    refine congrArg _ (funext fun a => Fin.ext ?_)
    match a with
    | ⟨0, _⟩ =>
      show win2_1.index t (0 : Fin 2) * 2000 + 1 * (y 0).val = win2_5.index t (0 : Fin 2) * 2000 + 1 * (y 0).val
      omega
    | ⟨1, _⟩ =>
      show win2_1.index t (1 : Fin 2) * 128 + 1 * kk.val = kk.val
      omega
  · -- the left weights' one block is the whole matrix
    funext z
    show V c main_arg8 (((cfg2.win 2).blk t).view.emb z) = V c main_arg8 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 64 + 1 * (z 1).val = (z 1).val; omega
  · -- the right weights' too
    funext z
    show V c main_arg10 (((cfg2.win 4).blk t).view.emb z) = V c main_arg10 z
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 64 + 1 * (z 1).val = (z 1).val; omega
  · -- and the bias row's
    funext z
    show V c main_v73 (((cfg2.win 3).blk t).view.emb z) = V c main_v73 z
    refine congrArg _ (funext fun a => Fin.ext ?_)
    match a with
    | ⟨0, _⟩ => show win2_3.index t (0 : Fin 2) * 1 + 1 * (z 0).val = (z 0).val; omega
    | ⟨1, _⟩ => show win2_3.index t (1 : Fin 2) * 64 + 1 * (z 1).val = (z 1).val; omega
  · -- the output's block keeps the column
    show (y 1).val = win2_5.index t (1 : Fin 2) * 64 + 1 * (y 1).val
    omega

/-- An index of the array is in point `t`'s block iff each coordinate is in the block's range on its axis. -/
theorem mem_blk (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v74).slice (win2_5.rect t)).set ↔ _
  rw [View.set_slice_whole, Rect.mem_set_unit]
  exact Iff.rfl

/-- Row r lies in the block of point r / 2000: the 25 blocks of 2000 rows cover the 50000 rows. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have ht : (i 0).val / 2000 < 25 := by omega
  obtain ⟨-, -, -, -, -, -, -, -, -, -, e50, e51⟩ := blocks ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    have e : win2_5.index ⟨(i 0).val / 2000, ht⟩ (0 : Fin 2) = (i 0).val / 2000 := e50
    omega
  | ⟨1, _⟩ =>
    show win2_5.index ⟨(i 0).val / 2000, ht⟩ (1 : Fin 2) * 64 ≤ (i 1).val
      ∧ (i 1).val < win2_5.index ⟨(i 0).val / 2000, ht⟩ (1 : Fin 2) * 64 + 64
    omega

/-- The output array after the region: the dense layer of the arrays the region was entered with. -/
theorem final (c : Dev nD) : (dat2 V c).arrAt 5 cfg2.N = layer V c :=
  (dat2 V c).arrAt_eq_of_cover 5 (layer V c) (fun t _ => flushed_eq V c t) (fun i => cover i)

end Cert.KernelIdeal.Region2

end
-- ==== Proof.Walk2.lean ====
/-
  The third stretch of host operations and the last region, read: the kernel program's result.

  The third stretch aggregates the second hidden features and casts the last bias to a row; the last region leaves the
  dense layer of those (64 columns, no maximum) in the result buffer.  So the last boundary's contents of the result
  buffer are the three-layer network of the launch contents of the arguments.
-/
import proofs.«167139_j83872121356315_1_alg».proof.Proof.Gen.KernelIdeal.Frame
import proofs.«167139_j83872121356315_1_alg».proof.Proof.KernelAgg
import proofs.«167139_j83872121356315_1_alg».proof.Proof.Walk1
import proofs.«167139_j83872121356315_1_alg».proof.Proof.Region2
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.Sage
open Idealize.ShloMosaic.Pipeline (Dat)

variable (m : (ℓ : Loc nD τ sig) → Buf (Elt Ideal) ℓ) (ρ : Dev nD → PrngReg) (c : Dev nD)

/-! ## After the third stretch -/

set_option maxHeartbeats 40000000 in
/-- The aggregated second hidden features. -/
theorem W5_v72 : W5 m ρ c (Proc.devRef .tc main_v72) = agg (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) := by
  have raw : W5 m ρ c (Proc.devRef .tc main_v72)
      = agg (W4 m ρ c (Proc.devRef .tc main_v49)) (W4 m ρ c (Proc.devRef .tc main_arg1)) := by
    show StableHlo.after hostOps2 (W4 m ρ c) (Proc.devRef .tc main_v72) = _
    after_results
    rfl
  rw [raw, W4_v49, W4_arg1]

set_option maxHeartbeats 40000000 in
/-- The last bias as a row. -/
theorem W5_v73 : W5 m ρ c (Proc.devRef .tc main_v73)
    = shapeCast S1x64 (m ((c : Thread nD τ).loc main_arg9)) shapeCasts_S64_S1x64 := by
  have raw : W5 m ρ c (Proc.devRef .tc main_v73)
      = shapeCast S1x64 (W4 m ρ c (Proc.devRef .tc main_arg9)) shapeCasts_S64_S1x64 := by
    show StableHlo.after hostOps2 (W4 m ρ c) (Proc.devRef .tc main_v73) = _
    after_results
    rfl
  rw [raw, W4_arg9]

/-- The stretch does not write the second hidden features. -/
theorem W5_v49 : W5 m ρ c (Proc.devRef .tc main_v49) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v49) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v49 m ρ c)

/-! Nor the last layer's weights. -/
theorem W5_arg8 : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg8 m ρ c)

theorem W5_arg10 : W5 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg10 m ρ c)

/-! ## After the last region -/

/-- The network: two hidden layers with the maximum, then the 64-column layer without. -/
def net (x : (⟨S50000x128, .f32⟩ : BufTy).Contents (Elt Ideal)) (e : (⟨S2x800000, .i32⟩ : BufTy).Contents (Elt Ideal))
    (wl0 : (⟨S128x128, .f32⟩ : BufTy).Contents (Elt Ideal)) (b0 : (⟨S128, .f32⟩ : BufTy).Contents (Elt Ideal)) (wr0 : (⟨S128x128, .f32⟩ : BufTy).Contents (Elt Ideal))
    (wl1 : (⟨S128x128, .f32⟩ : BufTy).Contents (Elt Ideal)) (b1 : (⟨S128, .f32⟩ : BufTy).Contents (Elt Ideal)) (wr1 : (⟨S128x128, .f32⟩ : BufTy).Contents (Elt Ideal))
    (wl2 : (⟨S128x64, .f32⟩ : BufTy).Contents (Elt Ideal)) (b2 : (⟨S64, .f32⟩ : BufTy).Contents (Elt Ideal)) (wr2 : (⟨S128x64, .f32⟩ : BufTy).Contents (Elt Ideal)) : (⟨S50000x64, .f32⟩ : BufTy).Contents (Elt Ideal) :=
  dense (n := 50000) (k := 128) (c := 64) (agg (hidden2 x e wl0 b0 wr0 wl1 b1 wr1) e) (hidden2 x e wl0 b0 wr0 wl1 b1 wr1) wl2 wr2
    (shapeCast S1x64 b2 shapeCasts_S64_S1x64)

/-- THE KERNEL'S RESULT: the last boundary's contents of the result buffer are the network of the arguments as launched. -/
theorem W6_v74 : W6 m ρ c (Proc.devRef .tc main_v74) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Region2.final (V5 m ρ) c).trans ?_)
  unfold Region2.layer net
  exact dense_congr (W5_v72 m ρ c) (W5_v49 m ρ c) (W5_arg8 m ρ c) (W5_arg10 m ρ c) (W5_v73 m ρ c)

end Cert.KernelIdeal.Walk

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«167139_j83872121356315_1_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.RefValue.lean ====
/-
  The reference's result as three layers.

  The reference's run ends with its result at one long term of the arguments.  That term is three applications of the
  same pattern: aggregate the current node features over the graph (gather the source rows, add them into their
  destination rows, divide by max(in-degree, 1)), then  (agg·Wl + b) + x·Wr,  then — after the first two layers —
  the maximum with zero.  Named here: `agg`, `layer128` / `layer64`, `reluOp`, `net`; the run's term IS `net` of the
  arguments (the names unfold to it).  At the ideal values a layer read at an index is the dense layer of DenseSpec with
  the bias added first, which is the same number as with the bias added last.
-/
import proofs.«167139_j83872121356315_1_alg».proof.Proof.Gen.ReferenceIdeal.Run
import proofs.«167139_j83872121356315_1_alg».proof.Proof.DenseSpec
import proofs.«167139_j83872121356315_1_alg».proof.Proof.LibSpread
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

section Split

variable {F : FTy → Type} [FloatOps F]

/-- Mean aggregation over the graph: row d of the result is the sum of the rows x[src(j)] over the edges j with
    dst(j) = d, divided by max(number of such edges, 1).  (A negative index is first wrapped by adding 50000.) -/
def agg (x : (⟨S50000x128, .f32⟩ : BufTy).Contents (Elt F)) (e : (⟨S2x800000, .i32⟩ : BufTy).Contents (Elt F)) : (⟨S50000x128, .f32⟩ : BufTy).Contents (Elt F) :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] e slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] e slices_S2x800000_S1x800000_0_0) shapeCasts_S1x800000_S800000) (broadcastInDim S800000 ![] bcast_S_S800000 (constantI S_ 32 0#32))) (addi (shapeCast _ (extractStridedSlice S1x800000 ![0, 0] e slices_S2x800000_S1x800000_0_0) shapeCasts_S1x800000_S800000) (broadcastInDim S800000 ![] bcast_S_S800000 (constantI S_ 32 50000#32))) (shapeCast _ (extractStridedSlice S1x800000 ![0, 0] e slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] e slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))

/-- One layer, 128 columns wide: (a·wl + b) + x·wr, the bias row spread over the rows. -/
def layer128 (a x : (⟨S50000x128, .f32⟩ : BufTy).Contents (Elt F)) (wl wr : (⟨S128x128, .f32⟩ : BufTy).Contents (Elt F)) (b : (⟨S128, .f32⟩ : BufTy).Contents (Elt F)) : (⟨S50000x128, .f32⟩ : BufTy).Contents (Elt F) :=
  addf (addf (Host.dotGeneral dot_S50000x128_S128x128_S50000x128_1_0_0_1_n_n none a wl) (broadcastInDim S50000x128 ![0, 1] bcast_S1x128_S50000x128_0_1 (broadcastInDim S1x128 ![1] bcast_S128_S1x128_1 b))) (Host.dotGeneral dot_S50000x128_S128x128_S50000x128_1_0_0_1_n_n none x wr)

/-- One layer, 64 columns wide. -/
def layer64 (a x : (⟨S50000x128, .f32⟩ : BufTy).Contents (Elt F)) (wl wr : (⟨S128x64, .f32⟩ : BufTy).Contents (Elt F)) (b : (⟨S64, .f32⟩ : BufTy).Contents (Elt F)) : (⟨S50000x64, .f32⟩ : BufTy).Contents (Elt F) :=
  addf (addf (Host.dotGeneral dot_S50000x128_S128x64_S50000x64_1_0_0_1_n_n none a wl) (broadcastInDim S50000x64 ![0, 1] bcast_S1x64_S50000x64_0_1 (broadcastInDim S1x64 ![1] bcast_S64_S1x64_1 b))) (Host.dotGeneral dot_S50000x128_S128x64_S50000x64_1_0_0_1_n_n none x wr)

/-- The maximum with zero, entry by entry. -/
def reluOp (v : (⟨S50000x128, .f32⟩ : BufTy).Contents (Elt F)) : (⟨S50000x128, .f32⟩ : BufTy).Contents (Elt F) :=
  maximumf v (broadcastInDim S50000x128 ![] bcast_S_S50000x128 (constant S_ .f32 0x00000000#32))

/-- The node features after the first layer. -/
def hidden1 (x : (⟨S50000x128, .f32⟩ : BufTy).Contents (Elt F)) (e : (⟨S2x800000, .i32⟩ : BufTy).Contents (Elt F)) (wl0 : (⟨S128x128, .f32⟩ : BufTy).Contents (Elt F)) (b0 : (⟨S128, .f32⟩ : BufTy).Contents (Elt F)) (wr0 : (⟨S128x128, .f32⟩ : BufTy).Contents (Elt F)) : (⟨S50000x128, .f32⟩ : BufTy).Contents (Elt F) :=
  reluOp (layer128 (agg x e) x wl0 wr0 b0)

/-- The whole network: two layers with the maximum, a last one without. -/
def net (x : (⟨S50000x128, .f32⟩ : BufTy).Contents (Elt F)) (e : (⟨S2x800000, .i32⟩ : BufTy).Contents (Elt F)) (wl0 : (⟨S128x128, .f32⟩ : BufTy).Contents (Elt F)) (b0 : (⟨S128, .f32⟩ : BufTy).Contents (Elt F)) (wr0 : (⟨S128x128, .f32⟩ : BufTy).Contents (Elt F))
    (wl1 : (⟨S128x128, .f32⟩ : BufTy).Contents (Elt F)) (b1 : (⟨S128, .f32⟩ : BufTy).Contents (Elt F)) (wr1 : (⟨S128x128, .f32⟩ : BufTy).Contents (Elt F)) (wl2 : (⟨S128x64, .f32⟩ : BufTy).Contents (Elt F)) (b2 : (⟨S64, .f32⟩ : BufTy).Contents (Elt F)) (wr2 : (⟨S128x64, .f32⟩ : BufTy).Contents (Elt F)) : (⟨S50000x64, .f32⟩ : BufTy).Contents (Elt F) :=
  layer64 (agg (reluOp (layer128 (agg (hidden1 x e wl0 b0 wr0) e) (hidden1 x e wl0 b0 wr0) wl1 wr1 b1)) e)
    (reluOp (layer128 (agg (hidden1 x e wl0 b0 wr0) e) (hidden1 x e wl0 b0 wr0) wl1 wr1 b1)) wl2 wr2 b2

set_option maxRecDepth 16384 in
/-- The run's result term is the network of the arguments: the names above unfold to it. -/
theorem res_eq (m : (ℓ : Loc nD τ sig) → Buf (Elt F) ℓ) (c : Dev nD) :
    Value.res_main_v88 m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold Value.res_main_v88 net hidden1 reluOp layer64 layer128 agg
  rfl

end Split

open Idealize.ShloMosaic.ValueIdx Cert.Lib.PlainDot Cert.Sage Cert.Lib.Spread

/-- A bias vector spread over the rows reads, at (r, q), the vector cast to a row at (0, q). -/
theorem spread_bias {n c : Nat} (bv : (⟨1, ![c]⟩ : Shape).Idx → EReal)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (biasIdx i) := by
  refine (spread_row bv h1 h2 hb i).trans (congrArg _ (funext fun a => ?_))
  match a with
  | ⟨0, _⟩ => rfl
  | ⟨1, _⟩ => rfl

/-- At the ideal values a 128-column layer is the dense layer of its operands, the bias cast to a row. -/
theorem layer128_eq (a x : (⟨S50000x128, .f32⟩ : BufTy).Contents (Elt Ideal)) (wl wr : (⟨S128x128, .f32⟩ : BufTy).Contents (Elt Ideal)) (b : (⟨S128, .f32⟩ : BufTy).Contents (Elt Ideal))
    (hb : S128.ShapeCasts S1x128) :
    layer128 (F := Ideal) a x wl wr b = dense (n := 50000) (k := 128) (c := 128) a x wl wr (shapeCast S1x128 b hb) := by
  rw [← denseBiasFirst_eq]
  funext i
  unfold layer128 denseBiasFirst
  refine congrArg₂ (· + ·) (congrArg₂ (· + ·) ?_ ?_) ?_
  · simp only [Host.dotGeneral]
    exact dotGeneral_apply _ rfl _ _ a wl i
  · exact spread_bias b _ _ hb i
  · simp only [Host.dotGeneral]
    exact dotGeneral_apply _ rfl _ _ x wr i

/-- At the ideal values the 64-column layer is the dense layer of its operands, the bias cast to a row. -/
theorem layer64_eq (a x : (⟨S50000x128, .f32⟩ : BufTy).Contents (Elt Ideal)) (wl wr : (⟨S128x64, .f32⟩ : BufTy).Contents (Elt Ideal)) (b : (⟨S64, .f32⟩ : BufTy).Contents (Elt Ideal))
    (hb : S64.ShapeCasts S1x64) :
    layer64 (F := Ideal) a x wl wr b = dense (n := 50000) (k := 128) (c := 64) a x wl wr (shapeCast S1x64 b hb) := by
  rw [← denseBiasFirst_eq]
  funext i
  unfold layer64 denseBiasFirst
  refine congrArg₂ (· + ·) (congrArg₂ (· + ·) ?_ ?_) ?_
  · simp only [Host.dotGeneral]
    exact dotGeneral_apply _ rfl _ _ a wl i
  · exact spread_bias b _ _ hb i
  · simp only [Host.dotGeneral]
    exact dotGeneral_apply _ rfl _ _ x wr i

/-- At the ideal values the maximum with the spread zero is `relu`. -/
theorem reluOp_eq (v : (⟨S50000x128, .f32⟩ : BufTy).Contents (Elt Ideal)) : reluOp (F := Ideal) v = relu v := by
  funext i
  unfold reluOp relu
  refine congrArg (max (v i)) ?_
  exact broadcastInDim_apply _ bcast_S_S50000x128 (constant (F := Ideal) S_ .f32 0x00000000#32) i (fun a => a.elim0) (fun a => a.elim0)

end Cert.ReferenceIdeal.RefValue

end
-- ==== Proof.Bridge.lean ====
/-
  The two networks are one function.

  The kernel program's result is the network written with dense layers whose bias is added last; the reference's is the
  network written with its host operations.  Layer by layer: the reference's layer, read at an index, is the dense
  layer with the bias added before the second product, which is the same extended real as with the bias added last
  (commutativity and associativity of addition, valid at the infinities too); its maximum with a spread zero is the
  entrywise maximum with zero; and the aggregation in front of each layer is the same host operations with the same
  constants in both programs.  Since each layer's equality holds for EVERY input, the hidden features agree and the
  layers compose.
-/
import proofs.«167139_j83872121356315_1_alg».proof.Proof.Walk2
import proofs.«167139_j83872121356315_1_alg».proof.Proof.RefValue

set_option maxRecDepth 16384

noncomputable section

namespace Cert.Bridge

open Idealize.ShloMosaic Cert.Sage
open Cert.KernelIdeal.Walk (agg hidden1 hidden2 net)

/-- The aggregation is the same function in the two programs: the same operations, constants and dimension records. -/
theorem agg_eq (x : (⟨Cert.KernelIdeal.S50000x128, .f32⟩ : BufTy).Contents (Elt Ideal)) (e : (⟨Cert.KernelIdeal.S2x800000, .i32⟩ : BufTy).Contents (Elt Ideal)) :
    Cert.ReferenceIdeal.RefValue.agg (F := Ideal) x e = agg (F := Ideal) x e := rfl

/-- One hidden layer of the reference — aggregate, the 128-column layer, the maximum — is relu of the dense layer of
    the aggregated and the plain features, whatever the features are. -/
theorem hidden_layer_eq (h : (⟨Cert.KernelIdeal.S50000x128, .f32⟩ : BufTy).Contents (Elt Ideal)) (e : (⟨Cert.KernelIdeal.S2x800000, .i32⟩ : BufTy).Contents (Elt Ideal))
    (wl wr : (⟨Cert.KernelIdeal.S128x128, .f32⟩ : BufTy).Contents (Elt Ideal)) (b : (⟨Cert.KernelIdeal.S128, .f32⟩ : BufTy).Contents (Elt Ideal)) :
    Cert.ReferenceIdeal.RefValue.reluOp (F := Ideal)
        (Cert.ReferenceIdeal.RefValue.layer128 (F := Ideal) (Cert.ReferenceIdeal.RefValue.agg (F := Ideal) h e) h wl wr b)
      = relu (dense (n := 50000) (k := 128) (c := 128) (agg (F := Ideal) h e) h wl wr
          (shapeCast Cert.KernelIdeal.S1x128 b Cert.KernelIdeal.Gen.shapeCasts_S128_S1x128)) :=
  (Cert.ReferenceIdeal.RefValue.reluOp_eq _).trans
    (congrArg relu ((Cert.ReferenceIdeal.RefValue.layer128_eq _ h wl wr b Cert.KernelIdeal.Gen.shapeCasts_S128_S1x128).trans
      (dense_congr (agg_eq h e) rfl rfl rfl rfl)))

/-- The reference's network is the kernel's network, on all inputs. -/
theorem net_eq (x : (⟨Cert.KernelIdeal.S50000x128, .f32⟩ : BufTy).Contents (Elt Ideal)) (e : (⟨Cert.KernelIdeal.S2x800000, .i32⟩ : BufTy).Contents (Elt Ideal))
    (wl0 : (⟨Cert.KernelIdeal.S128x128, .f32⟩ : BufTy).Contents (Elt Ideal)) (b0 : (⟨Cert.KernelIdeal.S128, .f32⟩ : BufTy).Contents (Elt Ideal)) (wr0 : (⟨Cert.KernelIdeal.S128x128, .f32⟩ : BufTy).Contents (Elt Ideal))
    (wl1 : (⟨Cert.KernelIdeal.S128x128, .f32⟩ : BufTy).Contents (Elt Ideal)) (b1 : (⟨Cert.KernelIdeal.S128, .f32⟩ : BufTy).Contents (Elt Ideal)) (wr1 : (⟨Cert.KernelIdeal.S128x128, .f32⟩ : BufTy).Contents (Elt Ideal))
    (wl2 : (⟨Cert.KernelIdeal.S128x64, .f32⟩ : BufTy).Contents (Elt Ideal)) (b2 : (⟨Cert.KernelIdeal.S64, .f32⟩ : BufTy).Contents (Elt Ideal)) (wr2 : (⟨Cert.KernelIdeal.S128x64, .f32⟩ : BufTy).Contents (Elt Ideal)) :
    Cert.ReferenceIdeal.RefValue.net (F := Ideal) x e wl0 b0 wr0 wl1 b1 wr1 wl2 b2 wr2
      = net x e wl0 b0 wr0 wl1 b1 wr1 wl2 b2 wr2 := by
  have h1 : Cert.ReferenceIdeal.RefValue.hidden1 (F := Ideal) x e wl0 b0 wr0 = hidden1 x e wl0 b0 wr0 :=
    hidden_layer_eq x e wl0 wr0 b0
  have h2 : Cert.ReferenceIdeal.RefValue.reluOp (F := Ideal) (Cert.ReferenceIdeal.RefValue.layer128 (F := Ideal)
        (Cert.ReferenceIdeal.RefValue.agg (F := Ideal) (Cert.ReferenceIdeal.RefValue.hidden1 (F := Ideal) x e wl0 b0 wr0) e)
        (Cert.ReferenceIdeal.RefValue.hidden1 (F := Ideal) x e wl0 b0 wr0) wl1 wr1 b1)
      = hidden2 x e wl0 b0 wr0 wl1 b1 wr1 := by
    rw [h1]
    exact hidden_layer_eq (hidden1 x e wl0 b0 wr0) e wl1 wr1 b1
  unfold Cert.ReferenceIdeal.RefValue.net
  rw [h2]
  exact (Cert.ReferenceIdeal.RefValue.layer64_eq _ _ wl2 wr2 b2 Cert.KernelIdeal.Gen.shapeCasts_S64_S1x64).trans
    (dense_congr (agg_eq _ e) rfl rfl rfl rfl)

end Cert.Bridge

end
-- ==== Proof.lean ====
/-
  The certificate of a three-layer graph network (mean aggregation, two 128-wide layers with a maximum at zero, one
  64-wide layer) computed with a row-blocked kernel per layer, against the same network written with whole-array
  operations.

  Per layer both programs aggregate the node features over the edges with the same host operations and then form
  agg·Wl + x·Wr + b.  The kernel does it 2000 rows at a time, with products into a zero accumulator and the bias added
  last; the reference in one piece, with the bias added before the second product.  At the ideal values a block of the
  layer is the layer read at the block's rows, the 25 blocks cover the array, and (p + b) + s = (p + s) + b on the
  extended reals with no finiteness needed — so each layer is the same function of ITS inputs on every input, and the
  three layers compose.  The precondition (finite inputs) is never opened.

  The frames of the two kernel programs are the generated ones; the reference's frame is its generated run with the
  result dropped; the idealization rewrote nothing, so `preserves` is trivial; `algebraic` puts the kernel's run
  (its result read through the three regions) beside the reference's run (its result split into the three layers).
-/
import proofs.«167139_j83872121356315_1_alg».proof.Defs
import proofs.«167139_j83872121356315_1_alg».proof.Proof.Gen.Kernel
import proofs.«167139_j83872121356315_1_alg».proof.Proof.Gen.Kernel.Skeleton
import proofs.«167139_j83872121356315_1_alg».proof.Proof.Gen.Kernel.Launch
import proofs.«167139_j83872121356315_1_alg».proof.Proof.Gen.Kernel.Points
import proofs.«167139_j83872121356315_1_alg».proof.Proof.Gen.Kernel.Frame
import proofs.«167139_j83872121356315_1_alg».proof.Proof.Gen.KernelIdeal
import proofs.«167139_j83872121356315_1_alg».proof.Proof.Gen.KernelIdeal.Skeleton
import proofs.«167139_j83872121356315_1_alg».proof.Proof.Gen.KernelIdeal.Launch
import proofs.«167139_j83872121356315_1_alg».proof.Proof.Gen.KernelIdeal.Points
import proofs.«167139_j83872121356315_1_alg».proof.Proof.Gen.KernelIdeal.Frame
import proofs.«167139_j83872121356315_1_alg».proof.Proof.Gen.ReferenceIdeal
import proofs.«167139_j83872121356315_1_alg».proof.Proof.Gen.Pre_finite_inputs
import proofs.«167139_j83872121356315_1_alg».proof.Proof.Gen.ReferenceIdeal.Run
import proofs.«167139_j83872121356315_1_alg».proof.Proof.KernelRun
import proofs.«167139_j83872121356315_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, faults nowhere and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run, and both end with the network of the arguments
    in their result buffers. -/
theorem algebraic : Cert.algebraic_KernelIdeal_ReferenceIdeal := by
  intro m ρ m' ρ' _ hagree
  refine ⟨fun c => Cert.KernelIdeal.Walk.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · -- the kernel program: its run, the result buffer read through the three regions
    exact (θ_run Cert.KernelIdeal.defs _ _).mono
      (fun r h c => ⟨(h c).1.trans (Cert.KernelIdeal.Walk.W6_v74 m ρ c), (h c).2⟩)
      (Cert.KernelIdeal.KRun.run_result (F := Ideal) m ρ)
  · -- the reference: its run, the result term split into the three layers, the arguments' agreement rewritten
    refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.res_eq, a0, a1, a2, a3, a4, a5, a6, a7, a8, a9, a10]
    exact Cert.Bridge.net_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
